-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S50000x128 : Shape := ⟨2, ![50000, 128]⟩
abbrev S50000x1000 : Shape := ⟨2, ![50000, 1000]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S50000x1000 : S_.BroadcastsInDim S50000x1000 (![] : Fin 0 → Fin S50000x1000.rank)
  reducesTo_S50000x1000_S_d0_1 : S50000x1000.ReducesTo [0, 1] S_

variable [Facts]

def fn {F : FTy → Type} [FloatOps F] (main_arg0 : FVec F S4096x128 .f32) (main_arg1 : FVec F S50000x128 .f32) (main_arg2 : FVec F S50000x1000 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x1000 .f32 := Host.absf main_arg2
  let main_cst_2 : FVec F S_ .f32 := constant S_ .f32 0x7F800000#32
  let main_v10 : FVec F S50000x1000 .f32 := broadcastInDim S50000x1000 ![] bcast_S_S50000x1000 main_cst_2
  let main_v11 : IVec S50000x1000 1 := cmpf .olt main_v9 main_v10
  let main_c_3 : IVec S_ 1 := constantI S_ 1 1#1
  let main_v12 : IVec S_ 1 := (fun x v => Host.reduce IntOp.andi x v reducesTo_S50000x1000_S_d0_1 h_S_) main_v11 main_c_3
  let main_v13 : IVec S_ 1 := andi main_v8 main_v12
  main_v13
-- ==== Kernel.lean ====
abbrev S4096x128 : Shape := ⟨2, ![4096, 128]⟩
abbrev S50000x128 : Shape := ⟨2, ![50000, 128]⟩
abbrev S50000x1000 : Shape := ⟨2, ![50000, 1000]⟩
abbrev S4096x1000 : Shape := ⟨2, ![4096, 1000]⟩
abbrev S512x128 : Shape := ⟨2, ![512, 128]⟩
abbrev S1000x128 : Shape := ⟨2, ![1000, 128]⟩
abbrev S1000x1000 : Shape := ⟨2, ![1000, 1000]⟩
abbrev S512x1000 : Shape := ⟨2, ![512, 1000]⟩
abbrev S1000x512 : Shape := ⟨2, ![1000, 512]⟩
abbrev S1000 : Shape := ⟨1, ![1000]⟩
abbrev S1000x1 : Shape := ⟨2, ![1000, 1]⟩
abbrev S512 : Shape := ⟨1, ![512]⟩
abbrev S512x1 : Shape := ⟨2, ![512, 1]⟩
abbrev S1x512 : Shape := ⟨2, ![1, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S50000x128, .f32⟩
  | .hbm, ⟨2, _⟩ => ⟨S50000x1000, .f32⟩
  | .hbm, ⟨3, _⟩ => ⟨S4096x1000, .f32⟩
  | .local _ .vmem, ⟨0, _⟩ => ⟨S512x128, .f32⟩
  | .local _ .vmem, ⟨1, _⟩ => ⟨S512x128, .f32⟩
  | .local _ .vmem, ⟨2, _⟩ => ⟨S1000x128, .f32⟩
  | .local _ .vmem, ⟨3, _⟩ => ⟨S1000x128, .f32⟩
  | .local _ .vmem, ⟨4, _⟩ => ⟨S1000x1000, .f32⟩
  | .local _ .vmem, ⟨5, _⟩ => ⟨S1000x1000, .f32⟩
  | .local _ .vmem, ⟨6, _⟩ => ⟨S512x1000, .f32⟩
  | .local _ .vmem, ⟨7, _⟩ => ⟨S512x1000, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1000x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S512x1000_S512x1000_0_0 : ∀ a, (![0, 0] : Fin 2 → Nat) a + S512x1000.size a ≤ S512x1000.size a
  h_S512x1000 : 0 < S512x1000.numel
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  inb_S1000x1000_S1000x1000_0_0 : ∀ a, (![0, 0] : Fin 2 → Nat) a + S1000x1000.size a ≤ S1000x1000.size a
  h_S1000x1000 : 0 < S1000x1000.numel
  bitsLt_bf16_f32 : FTy.bits .bf16 < FTy.bits .f32
  reduces_S1000x128_S1000 : S1000x128.Reduces [1] S1000
  shapeCasts_S1000_S1000x1 : S1000.ShapeCasts S1000x1
  reduces_S512x128_S512 : S512x128.Reduces [1] S512
  shapeCasts_S512_S512x1 : S512.ShapeCasts S512x1
  transposes_S512x1_p1_0_S1x512 : S512x1.Transposes [1, 0] S1x512
  broadcasts_S1000x1_S1000x512 : S1000x1.Broadcasts S1000x512
  broadcasts_S1x512_S1000x512 : S1x512.Broadcasts S1000x512
  shapeCasts_S512x1000_S512x1000 : S512x1000.ShapeCasts S512x1000
  reduces_S512x1000_S512 : S512x1000.Reduces [1] S512
  broadcasts_S512x1_S512x1000 : S512x1.Broadcasts S512x1000
  dot_S1000x128_S512x128_S1000x512_1_1_0_0_n_n_wf : DotDims.WF S1000x128 S512x128 S1000x512 [1] [1] [0] [0] [] []
  dot_S1000x512_S1000x1000_S512x1000_0_0_1_1_n_n_wf : DotDims.WF S1000x512 S1000x1000 S512x1000 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S4096x128.size a
  hwx0_0 : ∀ i : grid0.Coords, EltTy.bits .f32 = 32 ∨ (Rect.block (s := S4096x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1000.size a ≤ S50000x1000.size a
  hwx0_2 : ∀ i : grid0.Coords, EltTy.bits .f32 = 32 ∨ (Rect.block (s := S50000x1000) S1000x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1000.size a ≤ S4096x1000.size a
  hwx0_3 : ∀ i : grid0.Coords, EltTy.bits .f32 = 32 ∨ (Rect.block (s := S4096x1000) S512x1000.size (cc0_transform_3 i) (hinb0_3 i)).WholeWords (EltTy.packing .f32)

variable [Facts₀]

def dot_S1000x128_S512x128_S1000x512_1_1_0_0_n_n : DotDims S1000x128 S512x128 S1000x512 where
  lhsContracting := [1]
  rhsContracting := [1]
  lhsNonContracting := [0]
  rhsNonContracting := [0]
  lhsBatch := []
  rhsBatch := []
  wf := dot_S1000x128_S512x128_S1000x512_1_1_0_0_n_n_wf
def dot_S1000x512_S1000x1000_S512x1000_0_0_1_1_n_n : DotDims S1000x512 S1000x1000 S512x1000 where
  lhsContracting := [0]
  rhsContracting := [0]
  lhsNonContracting := [1]
  rhsNonContracting := [1]
  lhsBatch := []
  rhsBatch := []
  wf := dot_S1000x512_S1000x1000_S512x1000_0_0_1_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x1000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x128 : Shape := ⟨2, ![4096, 128]⟩
abbrev S50000x128 : Shape := ⟨2, ![50000, 128]⟩
abbrev S50000x1000 : Shape := ⟨2, ![50000, 1000]⟩
abbrev S_ : Shape := ⟨0, ![]⟩
abbrev S50000 : Shape := ⟨1, ![50000]⟩
abbrev S50000x1 : Shape := ⟨2, ![50000, 1]⟩
abbrev S128x4096 : Shape := ⟨2, ![128, 4096]⟩
abbrev S50000x4096 : Shape := ⟨2, ![50000, 4096]⟩
abbrev S4096 : Shape := ⟨1, ![4096]⟩
abbrev S1x4096 : Shape := ⟨2, ![1, 4096]⟩
abbrev S4096x50000 : Shape := ⟨2, ![4096, 50000]⟩
abbrev S4096x1000 : Shape := ⟨2, ![4096, 1000]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S50000x128, .f32⟩
  | .hbm, ⟨2, _⟩ => ⟨S50000x1000, .f32⟩
  | .hbm, ⟨3, _⟩ => ⟨S50000x128, .f32⟩
  | .hbm, ⟨4, _⟩ => ⟨S_, .f32⟩
  | .hbm, ⟨5, _⟩ => ⟨S50000, .f32⟩
  | .hbm, ⟨6, _⟩ => ⟨S50000x1, .f32⟩
  | .hbm, ⟨7, _⟩ => ⟨S128x4096, .f32⟩
  | .hbm, ⟨8, _⟩ => ⟨S50000x4096, .f32⟩
  | .hbm, ⟨9, _⟩ => ⟨S_, .f32⟩
  | .hbm, ⟨10, _⟩ => ⟨S50000x4096, .f32⟩
  | .hbm, ⟨11, _⟩ => ⟨S50000x4096, .f32⟩
  | .hbm, ⟨12, _⟩ => ⟨S50000x4096, .f32⟩
  | .hbm, ⟨13, _⟩ => ⟨S50000x4096, .f32⟩
  | .hbm, ⟨14, _⟩ => ⟨S4096x128, .f32⟩
  | .hbm, ⟨15, _⟩ => ⟨S_, .f32⟩
  | .hbm, ⟨16, _⟩ => ⟨S4096, .f32⟩
  | .hbm, ⟨17, _⟩ => ⟨S1x4096, .f32⟩
  | .hbm, ⟨18, _⟩ => ⟨S50000x4096, .f32⟩
  | .hbm, ⟨19, _⟩ => ⟨S50000x4096, .f32⟩
  | .hbm, ⟨20, _⟩ => ⟨S_, .f32⟩
  | .hbm, ⟨21, _⟩ => ⟨S50000x4096, .f32⟩
  | .hbm, ⟨22, _⟩ => ⟨S50000x4096, .f32⟩
  | .hbm, ⟨23, _⟩ => ⟨S_, .f32⟩
  | .hbm, ⟨24, _⟩ => ⟨S50000x4096, .f32⟩
  | .hbm, ⟨25, _⟩ => ⟨S50000x4096, .f32⟩
  | .hbm, ⟨26, _⟩ => ⟨S_, .f32⟩
  | .hbm, ⟨27, _⟩ => ⟨S50000x4096, .f32⟩
  | .hbm, ⟨28, _⟩ => ⟨S50000x4096, .f32⟩
  | .hbm, ⟨29, _⟩ => ⟨S4096x50000, .f32⟩
  | .hbm, ⟨30, _⟩ => ⟨S4096x1000, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1000, .f32⟩
  | .hbm, ⟨35, _⟩ => ⟨S4096x1000, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  reducesTo_S50000x128_S50000_d1 : S50000x128.ReducesTo [1] S50000
  h_S_ : 0 < S_.numel
  bcast_S50000_S50000x1_0 : S50000.BroadcastsInDim S50000x1 (![0] : Fin 1 → Fin S50000x1.rank)
  transposes_S4096x128_S128x4096_1_0 : S4096x128.Transposes [1, 0] S128x4096
  bcast_S_S50000x4096 : S_.BroadcastsInDim S50000x4096 (![] : Fin 0 → Fin S50000x4096.rank)
  bcast_S50000x1_S50000x4096_0_1 : S50000x1.BroadcastsInDim S50000x4096 (![0, 1] : Fin 2 → Fin S50000x4096.rank)
  reducesTo_S4096x128_S4096_d1 : S4096x128.ReducesTo [1] S4096
  bcast_S4096_S1x4096_1 : S4096.BroadcastsInDim S1x4096 (![1] : Fin 1 → Fin S1x4096.rank)
  bcast_S1x4096_S50000x4096_0_1 : S1x4096.BroadcastsInDim S50000x4096 (![0, 1] : Fin 2 → Fin S50000x4096.rank)
  transposes_S50000x4096_S4096x50000_1_0 : S50000x4096.Transposes [1, 0] S4096x50000
  reducesTo_S4096x1000_S4096_d1 : S4096x1000.ReducesTo [1] S4096
  bcast_S4096_S4096x1_0 : S4096.BroadcastsInDim S4096x1 (![0] : Fin 1 → Fin S4096x1.rank)
  bcast_S4096x1_S4096x1000_0_1 : S4096x1.BroadcastsInDim S4096x1000 (![0, 1] : Fin 2 → Fin S4096x1000.rank)
  dot_S50000x128_S128x4096_S50000x4096_1_0_0_1_n_n_wf : DotDims.WF S50000x128 S128x4096 S50000x4096 [1] [0] [0] [1] [] []
  dot_S4096x50000_S50000x1000_S4096x1000_1_0_0_1_n_n_wf : DotDims.WF S4096x50000 S50000x1000 S4096x1000 [1] [0] [0] [1] [] []

variable [Facts₀]

def dot_S50000x128_S128x4096_S50000x4096_1_0_0_1_n_n : DotDims S50000x128 S128x4096 S50000x4096 where
  lhsContracting := [1]
  rhsContracting := [0]
  lhsNonContracting := [0]
  rhsNonContracting := [1]
  lhsBatch := []
  rhsBatch := []
  wf := dot_S50000x128_S128x4096_S50000x4096_1_0_0_1_n_n_wf
def dot_S4096x50000_S50000x1000_S4096x1000_1_0_0_1_n_n : DotDims S4096x50000 S50000x1000 S4096x1000 where
  lhsContracting := [1]
  rhsContracting := [0]
  lhsNonContracting := [0]
  rhsNonContracting := [1]
  lhsBatch := []
  rhsBatch := []
  wf := dot_S4096x50000_S50000x1000_S4096x1000_1_0_0_1_n_n_wf

class Facts : Prop extends Facts₀ where

variable [Facts]
-- ==== Proof.Spec.lean ====
/-
  The function both programs compute, entry by entry, on the extended reals.

  A query matrix X : [b, d] is scored against a dictionary of keys K : [a, d]. The weight of key row j for query row r
  is the reciprocal of the scaled squared distance plus a small offset,

      w(j, r) = 1 / ((|K_j|^2 - 2 (K_j . X_r) + |X_r|^2) / 10000 + eps),

  with the squared distance expanded into the two squared norms and the inner product, exactly in this order of
  operations. The weights combine the rows of a value matrix V : [a, n],

      kv(r, q) = sum over j of w(j, r) * V(j, q),

  and each row of the result is divided by its own sum:  kv(r, q) / (sum over q' of kv(r, q')).

  Every operation is the extended reals' own (the quotient is the ideal quotient `Ideal.div`), and the four
  constants 1, 2, 10000 and eps are kept as the 32-bit words both programs spell, so that they are never evaluated.
  The definitions are over any extents, so that the same weight can be read on a whole array and on a block of its
  rows; `weight_congr` says that the weight only looks at the two rows it is given.
-/
import Idealize.ShloMosaic.PureOps.Ideal
import Idealize.ShloMosaic.Lib.ValueIdx

noncomputable section

open scoped BigOperators

namespace Cert.Spec

open Idealize.ShloMosaic Idealize.ShloMosaic.ValueIdx

/-- The weight of key row `j` for query row `r`: one over the scaled squared distance plus the offset. -/
def weight {a b d : ℕ} (K : (⟨2, ![a, d]⟩ : Shape).Idx → EReal) (X : (⟨2, ![b, d]⟩ : Shape).Idx → EReal)
    (j : Fin a) (r : Fin b) : EReal :=
  Ideal.div (Ideal.ofBits .f32 0x3F800000#32)
    (Ideal.div
        (((∑ k : Fin d, K (ix2 j k) * K (ix2 j k))
            - Ideal.ofBits .f32 0x40000000#32 * ∑ k : Fin d, K (ix2 j k) * X (ix2 r k))
          + ∑ k : Fin d, X (ix2 r k) * X (ix2 r k))
        (Ideal.ofBits .f32 0x461C4000#32)
      + Ideal.ofBits .f32 0x38D1B717#32)

/-- The weight reads row `j` of the keys and row `r` of the queries and nothing else: two pairs of arrays that agree
    on those rows (under any renumbering of the rows) have the same weight. -/
theorem weight_congr {a b d a' b' : ℕ} (K : (⟨2, ![a, d]⟩ : Shape).Idx → EReal) (X : (⟨2, ![b, d]⟩ : Shape).Idx → EReal)
    (K' : (⟨2, ![a', d]⟩ : Shape).Idx → EReal) (X' : (⟨2, ![b', d]⟩ : Shape).Idx → EReal)
    (j : Fin a) (r : Fin b) (j' : Fin a') (r' : Fin b')
    (hK : ∀ k : Fin d, K (ix2 j k) = K' (ix2 j' k)) (hX : ∀ k : Fin d, X (ix2 r k) = X' (ix2 r' k)) :
    weight K X j r = weight K' X' j' r' := by
  unfold weight
  simp only [hK, hX]

/-- The weighted combination of the value rows for query row `r`, at column `q`. -/
def kv {a b d n : ℕ} (K : (⟨2, ![a, d]⟩ : Shape).Idx → EReal) (X : (⟨2, ![b, d]⟩ : Shape).Idx → EReal)
    (V : (⟨2, ![a, n]⟩ : Shape).Idx → EReal) (r : Fin b) (q : Fin n) : EReal :=
  ∑ j : Fin a, weight K X j r * V (ix2 j q)

/-- The result: each row of `kv` divided by its own sum. -/
def result {a b d n : ℕ} (K : (⟨2, ![a, d]⟩ : Shape).Idx → EReal) (X : (⟨2, ![b, d]⟩ : Shape).Idx → EReal)
    (V : (⟨2, ![a, n]⟩ : Shape).Idx → EReal) (r : Fin b) (q : Fin n) : EReal :=
  Ideal.div (kv K X V r q) (∑ q' : Fin n, kv K X V r q')

end Cert.Spec

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibDotsTN.lean ====
/-
  A matrix product whose two operands are both contracted on their FIRST axis, read at an entry on the extended reals.

  For dimension numbers that contract axis 0 of a [K, M] array with axis 0 of a [K, N] array, with no batch axes, the
  product into the zero accumulator at entry (r, q) is the sum over k of left(k, r) * right(k, q): the product of the
  transposed left operand with the right one, with no transpose ever formed. The result's row number is read on the
  left operand's second axis, its column number on the right operand's second axis, and the summed coordinate on the
  first axis of both.
-/
import Idealize.ShloMosaic.PureOps.Ideal
import Idealize.ShloMosaic.PureOps.Ideal.Laws
import Idealize.ShloMosaic.Lib.ValueIdx

noncomputable section

open scoped BigOperators

namespace Cert.LibDotsTN

open Idealize.ShloMosaic Idealize.ShloMosaic.ValueIdx

variable {M K N : Nat} (d : DotDims ⟨2, ![K, M]⟩ ⟨2, ![K, N]⟩ ⟨2, ![M, N]⟩)
  (hlc : d.lhsContracting = [0]) (hrc : d.rhsContracting = [0]) (hln : d.lhsNonContracting = [1])
  (hrn : d.rhsNonContracting = [1]) (hlb : d.lhsBatch = []) (hrb : d.rhsBatch = [])

include hlc in
theorem tn_rank_contr_one : d.contr.rank = 1 := by rw [d.rank_contr, hlc]; rfl

include hlc in
theorem tn_size_contr_zero : d.contr.size ⟨0, by rw [tn_rank_contr_one d hlc]; exact Nat.one_pos⟩ = K := by
  have := d.size_contr 0 (by rw [hlc]; exact Nat.one_pos)
  rw [this]
  simp [hlc]

include hln hlb in
/-- The left operand is read in the column numbered by the result entry's row ... -/
theorem tn_lhs_col (j : (⟨2, ![M, N]⟩ : Shape).Idx) (k : d.contr.Idx) : ((d.lhsIdx j k 1 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the column of the result entry. -/
theorem tn_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem tn_sum_apply {φ₁ φ₂ : FTy} (lhs : FVec Ideal ⟨2, ![K, M]⟩ φ₁) (rhs : FVec Ideal ⟨2, ![K, N]⟩ φ₂) (r : Fin M) (q : Fin N) :
    ∑ k : d.contr.Idx, lhs (d.lhsIdx (ix2 r q) k) * rhs (d.rhsIdx (ix2 r q) k)
      = ∑ k : Fin K, lhs (ix2 k r) * rhs (ix2 k q) := by
  rw [← Equiv.sum_comp (contrEquiv1 d K (tn_rank_contr_one d hlc) (tn_size_contr_zero d hlc)).symm]
  refine Finset.sum_congr rfl fun k _ => ?_
  have hk := contrEquiv1_symm_val d K (tn_rank_contr_one d hlc) (tn_size_contr_zero d hlc) k
  congr 1
  · refine congrArg lhs (funext fun a => Fin.ext ?_)
    match a with
    | ⟨0, _⟩ => exact (d.lhsIdx_val_of_single hlc _ _).trans hk
    | ⟨1, _⟩ => exact tn_lhs_col d hln hlb _ _
  · refine congrArg rhs (funext fun a => Fin.ext ?_)
    match a with
    | ⟨0, _⟩ => exact (d.rhsIdx_val_of_single hrc _ _).trans hk
    | ⟨1, _⟩ => exact tn_rhs_col d hln hrn hlb hrb _ _

include hlc hrc hln hrn hlb hrb in
/-- The matrix unit's product into the zero accumulator at entry (r, q). -/
theorem tn_matmul_zero_apply {φ₁ φ₂ : FTy} (prec : Option ContractPrecision) (lhs : FVec Ideal ⟨2, ![K, M]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 k r) * rhs (ix2 k q) := by
  rw [Ideal.matmul_constant_zero_apply]
  exact tn_sum_apply d hlc hrc hln hrn hlb hrb lhs rhs r q

end Cert.LibDotsTN

end
-- ==== Proof.Tile.lean ====
/-
  One grid step of the kernel, read at an entry.

  At a grid point the kernel holds a block of 512 query rows `x0`, a block of 1000 key rows `x1`, the matching
  1000 value rows `x2`, and the running block `acc` of the output. The step adds to `acc`, at row `p` and column
  `q`, the sum over the block's 1000 keys of weight(key jj, query p) * value(jj, q): the inner products come from
  a product that contracts both operands on their last axis, the two squared norms from row sums kept as a column
  (the queries' column then turned into a row), and the final combination from a product that contracts both
  operands on their first axis. The last step of a run divides each row of the block by its own sum, and the first
  starts from the zero block.
-/
import proofs.«155607_j25778393710918_1_alg».proof.Proof.Gen.KernelIdeal.Skeleton
import proofs.«155607_j25778393710918_1_alg».proof.Proof.Spec
import proofs.«155607_j25778393710918_1_alg».proof.Proof.LibKeepdims
import proofs.«155607_j25778393710918_1_alg».proof.Proof.LibDotsNT
import proofs.«155607_j25778393710918_1_alg».proof.Proof.LibDotsTN
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- The squared norms of the query rows, summed along each row, kept as a column, turned into a row and spread over
    the 1000 key rows: at (jj, p) the sum of the squares of query row `p`. -/
theorem queryNorm_apply (y : FVec Ideal S512x128 .f32) (h1 : S512x128.Reduces [1] S512) (hφ : FKind.Formats .f32)
    (hacc : (0x00000000#32 : BitVec 32) = 0x00000000#32) (h2 : S512.ShapeCasts S512x1)
    (h3 : S512x1.Transposes [1, 0] S1x512) (h4 : S1x512.Broadcasts S1000x512) (jj : Fin 1000) (p : Fin 512) :
    broadcastTo S1000x512 (transpose S1x512 [1, 0] (shapeCast S512x1 (multiReduction .add [1] S512 y 0x00000000#32 h1 hφ hacc) h2) h3) h4 (ix2 jj p)
      = ∑ k : Fin 128, y (ix2 p k) :=
  (broadcastTo_1b_ab_apply _ h4 jj p).trans
    ((transpose_ix2_apply _ h3 (0 : Fin 1) p).trans
      ((LibKeepdims.shapeCast_a_a1_apply _ h2 p 0).trans (LibKeepdims.rowSum_apply y h1 hφ hacc p)))

/-- THE STEP at an entry: the running block plus the block's 1000 keys' contributions. -/
theorem pay3_apply (x0 : FVec Ideal S512x128 .f32) (x1 : FVec Ideal S1000x128 .f32) (x2 : FVec Ideal S1000x1000 .f32)
    (acc : FVec Ideal S512x1000 .f32) (p : Fin 512) (q : Fin 1000) :
    k0_pay3 (F := Ideal) x0 x1 x2 acc (ix2 p q)
      = acc (ix2 p q) + ∑ jj : Fin 1000, Spec.weight x1 x0 jj p * x2 (ix2 jj q) := by
  unfold k0_pay3
  dsimp only
  refine congrArg₂ (· + ·) (congrFun (shapeCast_self acc _) _) ?_
  refine (LibDotsTN.tn_matmul_zero_apply _ rfl rfl rfl rfl rfl rfl none _ _ p q).trans ?_
  refine Finset.sum_congr rfl fun jj _ => congrArg₂ (· * ·) ?_ rfl
  unfold Spec.weight
  refine congrArg₂ Ideal.div rfl (congrArg₂ (· + ·) (congrArg₂ Ideal.div (congrArg₂ (· + ·) (congrArg₂ (· - ·) ?_ (congrArg₂ (· * ·) rfl ?_)) ?_) rfl) rfl)
  · exact LibKeepdims.rowSum_column_apply (mulf x1 x1) _ _ _ _ _ jj p
  · exact LibDotsNT.nt_matmul_zero_apply _ rfl rfl rfl rfl rfl rfl none _ _ jj p
  · exact queryNorm_apply (mulf x0 x0) _ _ _ _ _ _ jj p

/-- What one step adds to the running block, as a function of the block's index: at (p, q) the block's 1000 keys'
    contributions, weight(key jj, query p) * value(jj, q). -/
def stepAdd (x0 : FVec Ideal S512x128 .f32) (x1 : FVec Ideal S1000x128 .f32) (x2 : FVec Ideal S1000x1000 .f32) :
    S512x1000.Idx → EReal :=
  fun i => ∑ jj : Fin 1000, Spec.weight x1 x0 jj (i 0) * x2 (ix2 jj (i 1))

/-- THE STEP at any index of the block: the running block plus what the step adds. -/
theorem pay3_at (x0 : FVec Ideal S512x128 .f32) (x1 : FVec Ideal S1000x128 .f32) (x2 : FVec Ideal S1000x1000 .f32)
    (acc : FVec Ideal S512x1000 .f32) (i : S512x1000.Idx) :
    k0_pay3 (F := Ideal) x0 x1 x2 acc i = acc i + stepAdd x0 x1 x2 i := by
  obtain ⟨p, q, rfl⟩ : ∃ (p : Fin 512) (q : Fin 1000), i = ix2 p q := ⟨i 0, i 1, eq_ix2 i⟩
  exact pay3_apply x0 x1 x2 acc p q

/-- THE LAST STEP's division at an entry: the block's entry over the sum of its row. -/
theorem pay1_apply (a b : FVec Ideal S512x1000 .f32) (p : Fin 512) (q : Fin 1000) :
    k0_pay1 (F := Ideal) a b (ix2 p q) = Ideal.div (b (ix2 p q)) (∑ k : Fin 1000, a (ix2 p k)) := by
  unfold k0_pay1
  dsimp only
  refine congrArg₂ Ideal.div (congrFun (shapeCast_self b _) _) ?_
  refine (LibKeepdims.rowSum_column_apply _ _ _ _ _ _ p q).trans ?_
  exact Finset.sum_congr rfl fun k _ => congrFun (shapeCast_self a _) _

/-- THE START of a run: the zero block. -/
theorem pay2_apply (i : S512x1000.Idx) : k0_pay2 (F := Ideal) i = 0 := Ideal.ofBits_zero_f32

end Cert.KernelIdeal.Tile

end
-- ==== Proof.LibBlockSum.lean ====
/-
  A sum over a * b consecutive positions taken block by block.

  The positions 0 .. a*b - 1 fall into a blocks of b consecutive ones: position j lies in block j / b at place j % b,
  and block s holds the positions b*s, b*s + 1, .., b*s + b - 1. In a commutative monoid the sum over all positions is
  therefore the sum over the blocks of each block's own sum. Nothing about the summands is used: the law is the
  regrouping of a finite sum, so it holds on the extended reals with their infinities as well.
-/
import Mathlib.Algebra.BigOperators.Fin
import Mathlib.Logic.Equiv.Fin.Basic
import Mathlib.Data.Fintype.BigOperators

open scoped BigOperators

namespace Cert.LibBlockSum

/-- Place jj of block s is a position below a * b. -/
theorem pos_lt {a b : ℕ} (s : Fin a) (jj : Fin b) : b * s.val + jj.val < a * b := by
  have h1 : s.val + 1 ≤ a := s.isLt
  have h2 : jj.val < b := jj.isLt
  calc b * s.val + jj.val < b * s.val + b := by omega
    _ = b * (s.val + 1) := by rw [Nat.mul_add, Nat.mul_one]
    _ ≤ b * a := Nat.mul_le_mul_left b h1
    _ = a * b := Nat.mul_comm b a

/-- The sum over a * b positions is the sum over the a blocks of the sum over each block's b places. -/
theorem sum_blocks {β : Type*} [AddCommMonoid β] (a b : ℕ) (g : Fin (a * b) → β) :
    ∑ j : Fin (a * b), g j = ∑ s : Fin a, ∑ jj : Fin b, g ⟨b * s.val + jj.val, pos_lt s jj⟩ := by
  rw [← Equiv.sum_comp finProdFinEquiv g, Fintype.sum_prod_type]
  refine Finset.sum_congr rfl fun s _ => Finset.sum_congr rfl fun jj _ => congrArg g (Fin.ext ?_)
  show jj.val + b * s.val = b * s.val + jj.val
  exact Nat.add_comm _ _

/-- The same with the blocks counted by naturals below a, as a fold over a run of points produces them: the summand
    of a block number that is out of range is never used. -/
theorem sum_blocks_range {β : Type*} [AddCommMonoid β] (a b : ℕ) (g : Fin (a * b) → β) (f : ℕ → β)
    (hf : ∀ s : Fin a, f s.val = ∑ jj : Fin b, g ⟨b * s.val + jj.val, pos_lt s jj⟩) :
    ∑ s ∈ Finset.range a, f s = ∑ j : Fin (a * b), g j := by
  rw [sum_blocks a b g, Finset.sum_range]
  exact Finset.sum_congr rfl fun s _ => hf s

end Cert.LibBlockSum
-- ==== Proof.Fold.lean ====
/-
  The kernel's output array, read at an entry.

  The grid is 8 x 50: point t = 50 * bi + s works on query rows 512 * bi .. 512 * bi + 511 and on key rows
  1000 * s .. 1000 * s + 999, so the 50 points of run bi walk through all 50000 keys for one block of 512 queries.
  The output block of a run starts at zero, each point adds its 1000 keys' contributions, and the last point divides
  each row of the block by the row's sum before the block is written back. So the block ends, at (p, q), at

      total(p, q) / (sum over q' of total(p, q')),   total(p, q) = sum over the run's 50 points of what each adds,

  and the sum over 50 points of the sum over 1000 keys is the sum over all 50000 keys: the specification's weighted
  combination for query row 512 * bi + p. Only the regrouping of a finite sum is used, which holds on the extended
  reals whatever the entries are.
-/
import proofs.«155607_j25778393710918_1_alg».proof.Proof.Gen.KernelIdeal.Value
import proofs.«155607_j25778393710918_1_alg».proof.Proof.Tile
import proofs.«155607_j25778393710918_1_alg».proof.Proof.Spec
import proofs.«155607_j25778393710918_1_alg».proof.Proof.LibBlockSum
import Idealize.ShloMosaic.Lib.Pipeline.Value
import Idealize.ShloMosaic.Lib.ValueIdx

noncomputable section

open scoped BigOperators

namespace Cert.KernelIdeal.Fold

open Cert.KernelIdeal Cert.KernelIdeal.Gen Cert.KernelIdeal.Value Idealize.ShloMosaic Idealize.ShloMosaic.TcCoe
  Idealize.ShloMosaic.ValueIdx Idealize.SL.Sem

variable (m : (ℓ : Loc nD τ sig) → Buf (Elt Ideal) ℓ)

/-! ## The input blocks -/

/-- The printed index maps of the three input windows, decided over the grid: at point `t` the query block is
    number `t / 50`, the key block and the value block number `t % 50`, and no window moves along its second axis. -/
theorem idx_in : ∀ t : Fin cfg0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val % 50 ∧ win0_2.index t (1 : Fin 2) = 0 :=
  (by decide +kernel : ∀ t : Fin grid0.N, _)

/-- Row `p` of the query block at point `t` is row `512 * (t / 50) + p` of the queries. -/
theorem xblk_apply (c : Dev nD) (t : Fin cfg0.N) (p : Fin 512) (k : Fin 128) (b : Fin 4096)
    (hb : b.val = 512 * (t.val / 50) + p.val) :
    iblk m c 0 t (ix2 p k) = m ((c : Thread nD τ).loc main_arg0) (ix2 b k) := by
  show V m c main_arg0 (((cfg0.win 0).blk t).view.emb (ix2 p k)) = V m c main_arg0 (ix2 b k)
  obtain ⟨e0, e1, -⟩ := idx_in t
  refine congrArg (V m c main_arg0) (funext fun a => Fin.ext ?_)
  match a with
  | ⟨0, _⟩ => show win0_0.index t (0 : Fin 2) * 512 + 1 * p.val = b.val; omega
  | ⟨1, _⟩ => show win0_0.index t (1 : Fin 2) * 128 + 1 * k.val = k.val; omega

/-- Row `jj` of the key block at point `t` is row `1000 * (t % 50) + jj` of the keys. -/
theorem kblk_apply (c : Dev nD) (t : Fin cfg0.N) (jj : Fin 1000) (k : Fin 128) (j : Fin 50000)
    (hj : j.val = 1000 * (t.val % 50) + jj.val) :
    iblk m c 1 t (ix2 jj k) = m ((c : Thread nD τ).loc main_arg1) (ix2 j k) := by
  show V m c main_arg1 (((cfg0.win 1).blk t).view.emb (ix2 jj k)) = V m c main_arg1 (ix2 j k)
  obtain ⟨-, -, e0, e1, -⟩ := idx_in t
  refine congrArg (V m c main_arg1) (funext fun a => Fin.ext ?_)
  match a with
  | ⟨0, _⟩ => show win0_1.index t (0 : Fin 2) * 1000 + 1 * jj.val = j.val; omega
  | ⟨1, _⟩ => show win0_1.index t (1 : Fin 2) * 128 + 1 * k.val = k.val; omega

/-- Row `jj` of the value block at point `t` is row `1000 * (t % 50) + jj` of the values. -/
theorem vblk_apply (c : Dev nD) (t : Fin cfg0.N) (jj : Fin 1000) (q : Fin 1000) (j : Fin 50000)
    (hj : j.val = 1000 * (t.val % 50) + jj.val) :
    iblk m c 2 t (ix2 jj q) = m ((c : Thread nD τ).loc main_arg2) (ix2 j q) := by
  show V m c main_arg2 (((cfg0.win 2).blk t).view.emb (ix2 jj q)) = V m c main_arg2 (ix2 j q)
  obtain ⟨-, -, -, -, e0, e1⟩ := idx_in t
  refine congrArg (V m c main_arg2) (funext fun a => Fin.ext ?_)
  match a with
  | ⟨0, _⟩ => show win0_2.index t (0 : Fin 2) * 1000 + 1 * jj.val = j.val; omega
  | ⟨1, _⟩ => show win0_2.index t (1 : Fin 2) * 1000 + 1 * q.val = q.val; omega

/-! ## The fold over a run -/

/-- What point `n` adds to its output block (nothing for a number past the grid, which no run reaches). -/
def addend (c : Dev nD) (n : ℕ) : S512x1000.Idx → EReal := fun i =>
  if h : n < cfg0.N then Tile.stepAdd (iblk m c 0 ⟨n, h⟩) (iblk m c 1 ⟨n, h⟩) (iblk m c 2 ⟨n, h⟩) i else 0

/-- What the 50 points of the run starting at `B` add together. -/
def total (c : Dev nD) (B : ℕ) : S512x1000.Idx → EReal := fun i => ∑ s ∈ Finset.range 50, addend m c (B + s) i

/-- After the first 49 points of a run the block holds the zero block plus those points' contributions. -/
theorem fold48 (c : Dev nD) (B : ℕ) (hB : B % 50 = 0) (h : B + 48 < cfg0.N) (i : S512x1000.Idx) :
    Pipeline.accAt (reset3 m c) (step3 m c) B 48 h i
      = k0_pay2 (F := Ideal) i + ∑ s ∈ Finset.range 49, addend m c (B + s) i :=
  Pipeline.accAt_add_apply (reset3 m c) (step3 m c) (k0_pay2 (F := Ideal)) (addend m c) B 48
    (fun hb i => by
      unfold reset3 addend
      rw [dif_pos hb]
      exact Tile.pay3_at (iblk m c 0 ⟨B, hb⟩) (iblk m c 1 ⟨B, hb⟩) (iblk m c 2 ⟨B, hb⟩) (k0_pay2 (F := Ideal)) i)
    (fun n hn acc i h1 h2 => by
      unfold step3 addend
      rw [if_pos ⟨by omega, by omega⟩, dif_pos hn]
      exact Tile.pay3_at (iblk m c 0 ⟨n, hn⟩) (iblk m c 1 ⟨n, hn⟩) (iblk m c 2 ⟨n, hn⟩) acc i)
    48 (Nat.le_refl 48) h i

/-- The run's last point first brings the block to the run's total ... -/
theorem last_sum (c : Dev nD) (B : ℕ) (hB : B % 50 = 0) (h : B + 49 < cfg0.N) (i : S512x1000.Idx) :
    k0_pay3 (F := Ideal) (iblk m c 0 ⟨B + 49, h⟩) (iblk m c 1 ⟨B + 49, h⟩) (iblk m c 2 ⟨B + 49, h⟩)
        (Pipeline.accAt (reset3 m c) (step3 m c) B 48 (Nat.lt_of_succ_lt h)) i
      = total m c B i := by
  refine (Tile.pay3_at (iblk m c 0 ⟨B + 49, h⟩) (iblk m c 1 ⟨B + 49, h⟩) (iblk m c 2 ⟨B + 49, h⟩)
    (Pipeline.accAt (reset3 m c) (step3 m c) B 48 (Nat.lt_of_succ_lt h)) i).trans ?_
  rw [fold48 m c B hB (Nat.lt_of_succ_lt h) i, Tile.pay2_apply, zero_add]
  unfold total
  rw [Finset.sum_range_succ _ 49]
  refine congrArg (_ + ·) ?_
  unfold addend
  rw [dif_pos h]

/-- ... and then divides each row by its sum: what the block holds when it is written back. -/
theorem fold49 (c : Dev nD) (B : ℕ) (hB : B % 50 = 0) (h : B + 49 < cfg0.N) (p : Fin 512) (q : Fin 1000) :
    Pipeline.accAt (reset3 m c) (step3 m c) B 49 h (ix2 p q)
      = Ideal.div (total m c B (ix2 p q)) (∑ k : Fin 1000, total m c B (ix2 p k)) := by
  rw [Pipeline.accAt_succ]
  unfold step3
  rw [if_neg (by omega), if_pos ⟨by omega, by omega⟩]
  refine (Tile.pay1_apply _ _ p q).trans ?_
  refine congrArg₂ Ideal.div (last_sum m c B hB h (ix2 p q)) (Finset.sum_congr rfl fun k _ => last_sum m c B hB h (ix2 p k))

/-! ## A run's total is the weighted combination over all keys -/

/-- What point `50 * bi + s` adds at (p, q): the contributions of keys `1000 * s .. 1000 * s + 999` for query row
    `b = 512 * bi + p`. -/
theorem addend_apply (c : Dev nD) (bi : ℕ) (hbi : bi < 8) (s : Fin 50) (p : Fin 512) (q : Fin 1000) (b : Fin 4096)
    (hb : b.val = 512 * bi + p.val) :
    addend m c (50 * bi + s.val) (ix2 p q)
      = ∑ jj : Fin 1000, (fun j : Fin 50000 => Spec.weight (m ((c : Thread nD τ).loc main_arg1)) (m ((c : Thread nD τ).loc main_arg0)) j b
            * m ((c : Thread nD τ).loc main_arg2) (ix2 j q)) ⟨1000 * s.val + jj.val, LibBlockSum.pos_lt (a := 50) s jj⟩ := by
  have hs := s.isLt
  have hN : cfg0.N = 400 := N_0
  have ht : 50 * bi + s.val < cfg0.N := by rw [hN]; omega
  unfold addend
  rw [dif_pos ht]
  unfold Tile.stepAdd
  refine Finset.sum_congr rfl fun jj _ => ?_
  have hd : (50 * bi + s.val) / 50 = bi := by omega
  have hm : (50 * bi + s.val) % 50 = s.val := by omega
  refine congrArg₂ (· * ·) ?_ ?_
  · exact Spec.weight_congr _ _ _ _ jj p ⟨1000 * s.val + jj.val, LibBlockSum.pos_lt (a := 50) s jj⟩ b
      (fun k => kblk_apply m c ⟨50 * bi + s.val, ht⟩ jj k ⟨1000 * s.val + jj.val, LibBlockSum.pos_lt (a := 50) s jj⟩ (by
        show 1000 * s.val + jj.val = 1000 * ((50 * bi + s.val) % 50) + jj.val
        rw [hm]))
      (fun k => xblk_apply m c ⟨50 * bi + s.val, ht⟩ p k b (by
        show b.val = 512 * ((50 * bi + s.val) / 50) + p.val
        rw [hd]; exact hb))
  · exact vblk_apply m c ⟨50 * bi + s.val, ht⟩ jj q ⟨1000 * s.val + jj.val, LibBlockSum.pos_lt (a := 50) s jj⟩ (by
      show 1000 * s.val + jj.val = 1000 * ((50 * bi + s.val) % 50) + jj.val
      rw [hm])

/-- The total of run `bi` at (p, q) is the specification's weighted combination for query row `512 * bi + p`: fifty
    blocks of a thousand keys are all fifty thousand. -/
theorem total_apply (c : Dev nD) (bi : ℕ) (hbi : bi < 8) (p : Fin 512) (q : Fin 1000) (b : Fin 4096)
    (hb : b.val = 512 * bi + p.val) :
    total m c (50 * bi) (ix2 p q)
      = Spec.kv (m ((c : Thread nD τ).loc main_arg1)) (m ((c : Thread nD τ).loc main_arg0))
          (m ((c : Thread nD τ).loc main_arg2)) b q := by
  unfold total
  exact LibBlockSum.sum_blocks_range 50 1000
    (fun j : Fin 50000 => Spec.weight (m ((c : Thread nD τ).loc main_arg1)) (m ((c : Thread nD τ).loc main_arg0)) j b
      * m ((c : Thread nD τ).loc main_arg2) (ix2 j q))
    (fun s => addend m c (50 * bi + s) (ix2 p q))
    (fun s => addend_apply m c bi hbi s p q b hb)

/-! ## The output array -/

/-- THE KERNEL'S RESULT at (b, q) is the specification's: the run of query row `b` is `b / 512`, its place in the
    block `b % 512`. -/
theorem G3_apply (c : Dev nD) (b : Fin 4096) (q : Fin 1000) :
    G3 m c (ix2 b q)
      = Spec.result (m ((c : Thread nD τ).loc main_arg1)) (m ((c : Thread nD τ).loc main_arg0))
          (m ((c : Thread nD τ).loc main_arg2)) b q := by
  have hb := b.isLt
  have hq := q.isLt
  have hN : cfg0.N = 400 := N_0
  have hr : run3Of (ix2 b q) = b.val / 512 := by
    show 1 * (b.val / 512 - 0) + 1 * (q.val / 1000 - 0) = b.val / 512
    omega
  have hlt : 50 * run3Of (ix2 b q) + 49 < cfg0.N := by rw [hr, hN]; omega
  have hl : loc3Of (ix2 b q) = ix2 (⟨b.val % 512, Nat.mod_lt _ (by decide)⟩ : Fin 512) q :=
    funext fun a => Fin.ext (by
      match a with
      | ⟨0, _⟩ => rfl
      | ⟨1, _⟩ => exact Nat.mod_eq_of_lt hq)
  unfold G3
  rw [dif_pos hlt, hl]
  refine (fold49 m c (50 * run3Of (ix2 b q)) (by omega) hlt ⟨b.val % 512, Nat.mod_lt _ (by decide)⟩ q).trans ?_
  rw [hr]
  unfold Spec.result
  have hbp : b.val = 512 * (b.val / 512) + (⟨b.val % 512, Nat.mod_lt _ (by decide)⟩ : Fin 512).val := by
    show b.val = 512 * (b.val / 512) + b.val % 512
    omega
  exact congrArg₂ Ideal.div (total_apply m c (b.val / 512) (by omega) _ q b hbp)
    (Finset.sum_congr rfl fun k _ => total_apply m c (b.val / 512) (by omega) _ k b hbp)

end Cert.KernelIdeal.Fold

end
-- ==== Proof.RefRead.lean ====
/-
  The reference program, read at an entry.

  The host program forms the whole [50000, 4096] matrix of weights at once: the keys' squared norms as a column, the
  queries' squared norms as a row, the inner products by one matrix product against the transposed queries, then the
  scaling, the offset and the reciprocal, entry by entry. It transposes that matrix, multiplies it by the values in
  one product over all 50000 keys, and divides each row of the product by the row's sum. Read at an entry, stage by
  stage, this is the weight, the weighted combination and the normalized result of the specification; the host's
  sums start from the zero word, which adds nothing.
-/
import proofs.«155607_j25778393710918_1_alg».proof.Proof.Gen.ReferenceIdeal.Read
import proofs.«155607_j25778393710918_1_alg».proof.Proof.Spec
import Idealize.ShloMosaic.Lib.ValueIdx
import Idealize.ShloMosaic.PureOps.Ideal.Laws

noncomputable section

open scoped BigOperators

namespace Cert.ReferenceIdeal.RefRead

open Cert.ReferenceIdeal Cert.ReferenceIdeal.Gen Cert.ReferenceIdeal.Read Idealize.ShloMosaic Idealize.ShloMosaic.ValueIdx

variable (x0 : (⟨S4096x128, .f32⟩ : BufTy).Contents (Elt Ideal)) (x1 : (⟨S50000x128, .f32⟩ : BufTy).Contents (Elt Ideal))
  (x2 : (⟨S50000x1000, .f32⟩ : BufTy).Contents (Elt Ideal))

/-- The keys' squared norms, kept as a column and spread over the queries: at (j, b) the sum of the squares of key
    row `j`. -/
theorem keyNorm_apply (j : Fin 50000) (b : Fin 4096) :
    val_main_v7 (F := Ideal) x1 (ix2 j b) = ∑ k : Fin 128, x1 (ix2 j k) * x1 (ix2 j k) := by
  rw [val_main_v7_apply, val_main_v2_apply, val_main_v1_apply, val_main_cst_apply]
  refine (congrArg₂ (· + ·) Ideal.ofBits_zero_f32 (Finset.sum_congr rfl fun k _ => ?_)).trans (zero_add _)
  rw [val_main_v0_apply]
  have e : idx_main_v1 (idx_main_v2 (idx_main_v7 (ix2 j b))) k = ix2 j k :=
    funext fun a => Fin.ext (by match a with | ⟨0, _⟩ => rfl | ⟨1, _⟩ => rfl)
  rw [e]
  rfl

/-- The queries' squared norms, laid out as a row and spread over the keys: at (j, b) the sum of the squares of
    query row `b`. -/
theorem queryNorm_apply (j : Fin 50000) (b : Fin 4096) :
    val_main_v12 (F := Ideal) x0 (ix2 j b) = ∑ k : Fin 128, x0 (ix2 b k) * x0 (ix2 b k) := by
  rw [val_main_v12_apply, val_main_v11_apply, val_main_v10_apply, val_main_cst_1_apply]
  refine (congrArg₂ (· + ·) Ideal.ofBits_zero_f32 (Finset.sum_congr rfl fun k _ => ?_)).trans (zero_add _)
  rw [val_main_v9_apply]
  have e : idx_main_v10 (idx_main_v11 (idx_main_v12 (ix2 j b))) k = ix2 b k :=
    funext fun a => Fin.ext (by match a with | ⟨0, _⟩ => rfl | ⟨1, _⟩ => rfl)
  rw [e]
  rfl

/-- The inner products, by the product against the transposed queries: at (j, b) the sum over the features of
    key(j, k) * query(b, k). -/
theorem inner_apply (j : Fin 50000) (b : Fin 4096) :
    val_main_v4 (F := Ideal) x0 x1 (ix2 j b) = ∑ k : Fin 128, x1 (ix2 j k) * x0 (ix2 b k) := by
  rw [val_main_v4_apply]
  refine Finset.sum_congr rfl fun k _ => ?_
  rw [val_main_v3_apply]
  have el : lidx_main_v4 (ix2 j b) k = ix2 j k :=
    funext fun a => Fin.ext (by match a with | ⟨0, _⟩ => rfl | ⟨1, _⟩ => rfl)
  have er : idx_main_v3 (ridx_main_v4 (ix2 j b) k) = ix2 b k :=
    funext fun a => Fin.ext (by match a with | ⟨0, _⟩ => rfl | ⟨1, _⟩ => rfl)
  rw [el, er]

/-- The matrix of weights at (j, b) is the specification's weight of key row `j` for query row `b`. -/
theorem weight_apply (j : Fin 50000) (b : Fin 4096) :
    val_main_v19 (F := Ideal) x0 x1 (ix2 j b) = Spec.weight x1 x0 j b := by
  rw [val_main_v19_apply, val_main_v18_apply, val_main_cst_4_apply, val_main_v17_apply, val_main_v16_apply,
    val_main_cst_3_apply, val_main_v15_apply, val_main_v14_apply, val_main_cst_2_apply, val_main_v13_apply,
    val_main_v8_apply, val_main_v6_apply, val_main_v5_apply, val_main_cst_0_apply,
    keyNorm_apply, queryNorm_apply, inner_apply]
  rfl

/-- The product of the transposed weights with the values at (b, q) is the specification's weighted combination. -/
theorem kv_apply (b : Fin 4096) (q : Fin 1000) :
    val_main_v21 (F := Ideal) x0 x1 x2 (ix2 b q) = Spec.kv x1 x0 x2 b q := by
  rw [val_main_v21_apply]
  unfold Spec.kv
  refine Finset.sum_congr rfl fun j _ => ?_
  rw [val_main_v20_apply]
  have el : idx_main_v20 (lidx_main_v21 (ix2 b q) j) = ix2 j b :=
    funext fun a => Fin.ext (by match a with | ⟨0, _⟩ => rfl | ⟨1, _⟩ => rfl)
  have er : ridx_main_v21 (ix2 b q) j = ix2 j q :=
    funext fun a => Fin.ext (by match a with | ⟨0, _⟩ => rfl | ⟨1, _⟩ => rfl)
  rw [el, er, weight_apply]

/-- The row sums, kept as a column and spread over the row: at (b, q) the sum of row `b` of the combination. -/
theorem rowSum_apply (b : Fin 4096) (q : Fin 1000) :
    val_main_v24 (F := Ideal) x0 x1 x2 (ix2 b q) = ∑ q' : Fin 1000, Spec.kv x1 x0 x2 b q' := by
  rw [val_main_v24_apply, val_main_v23_apply, val_main_v22_apply, val_main_cst_5_apply]
  refine (congrArg₂ (· + ·) Ideal.ofBits_zero_f32 (Finset.sum_congr rfl fun k _ => ?_)).trans (zero_add _)
  have e : idx_main_v22 (idx_main_v23 (idx_main_v24 (ix2 b q))) k = ix2 b k :=
    funext fun a => Fin.ext (by match a with | ⟨0, _⟩ => rfl | ⟨1, _⟩ => rfl)
  rw [e, kv_apply]

/-- The reference's result at (b, q) is the specification's. -/
theorem result_apply (b : Fin 4096) (q : Fin 1000) :
    val_main_v25 (F := Ideal) x0 x1 x2 (ix2 b q) = Spec.result x1 x0 x2 b q := by
  rw [val_main_v25_apply, kv_apply, rowSum_apply]
  rfl

end Cert.ReferenceIdeal.RefRead

end
-- ==== Proof.lean ====
/-
  Reciprocal-distance attention over a dictionary of keys, tiled over the keys, against the same function on whole
  arrays.

  For queries X : [4096, 128], keys K : [50000, 128] and values V : [50000, 1000] both programs compute, on the
  extended reals,

      w(j, r)  = 1 / ((|K_j|^2 - 2 (K_j . X_r) + |X_r|^2) / 10000 + eps),
      kv(r, q) = sum over the 50000 keys j of w(j, r) * V(j, q),
      out(r, q) = kv(r, q) / (sum over q' of kv(r, q')).

  The kernel walks an 8 x 50 grid: for each block of 512 queries it visits the keys 1000 at a time, adds each block's
  contribution to a running output block that starts at zero, and at the last key block divides every row by its sum.
  The reference forms all weights at once and takes one product over all keys. The two agree entry by entry because a
  sum over fifty blocks of a thousand keys is the sum over all fifty thousand (a regrouping of a finite sum, valid on
  the extended reals whatever the entries are); the order of the operations inside a weight, the four constants and
  the two quotients are the same on both sides, and rounding the operands of a product to a shorter format is the
  identity on the extended reals. No rewriting rule was applied to the kernel, so the idealization claim is trivial.

  The kernel's output array as a fold over each run of 50 grid points, and the reference's result as a composition of
  its operations, are the generated value leg and the generated run; Proof/Fold.lean reads the fold at an entry,
  Proof/RefRead.lean the reference, both as the function of Proof/Spec.lean.
-/
import proofs.«155607_j25778393710918_1_alg».proof.Defs
import proofs.«155607_j25778393710918_1_alg».proof.Proof.Gen.Kernel.Frame
import proofs.«155607_j25778393710918_1_alg».proof.Proof.Gen.KernelIdeal.Value
import proofs.«155607_j25778393710918_1_alg».proof.Proof.Gen.Pre_finite_inputs
import proofs.«155607_j25778393710918_1_alg».proof.Proof.Gen.ReferenceIdeal.Run
import proofs.«155607_j25778393710918_1_alg».proof.Proof.Gen.ReferenceIdeal.Read
import proofs.«155607_j25778393710918_1_alg».proof.Proof.Fold
import proofs.«155607_j25778393710918_1_alg».proof.Proof.RefRead
import Idealize.ShloMosaic.Adequacy
import Idealize.ShloMosaic.Init

noncomputable section

namespace Cert.Proof

open Idealize.ShloMosaic Idealize.SL.Sem

/-- The idealized kernel runs and leaves its arguments alone: its value run, with the result forgotten. -/
theorem frame_KernelIdeal : frame_KernelIdeal := fun m ρ _ =>
  (θ_run Cert.KernelIdeal.defs _ _).mono (fun _ h c => (h c).2) (Cert.KernelIdeal.Value.run (F := Ideal) m ρ)

/-- The reference runs and leaves its arguments alone: its run, with the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From arguments that agree, the kernel's output array (the fold of its runs) and the reference's result are the
    same array: at every entry (b, q) both are the specification's normalized weighted combination. -/
theorem algebraic_KernelIdeal_ReferenceIdeal : algebraic_KernelIdeal_ReferenceIdeal := by
  intro m ρ m' ρ' _ hagree
  refine ⟨fun c => Cert.KernelIdeal.Value.G3 m c, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v25_eq, (hagree c).1, (hagree c).2.1, (hagree c).2.2]
  funext i
  obtain ⟨b, q, rfl⟩ : ∃ (b : Fin 4096) (q : Fin 1000), i = ValueIdx.ix2 b q := ⟨i 0, i 1, ValueIdx.eq_ix2 i⟩
  rw [Cert.ReferenceIdeal.RefRead.result_apply]
  exact (Cert.KernelIdeal.Fold.G3_apply m c b q).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
